-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x32 : Shape := ⟨2, ![16, 32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_

variable [Facts]

def fn_part3 {F : FTy → Type} [FloatOps F] (main_arg12 : FVec F S32x16 .f32) (main_arg13 : FVec F S16 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x16 .f32 := Host.absf main_arg12
  let main_cst_20 : FVec F S_ .f32 := constant S_ .f32 0x7F800000#32
  let main_v55 : FVec F S32x16 .f32 := broadcastInDim S32x16 ![] bcast_S_S32x16 main_cst_20
  let main_v56 : IVec S32x16 1 := cmpf .olt main_v54 main_v55
  let main_c_21 : IVec S_ 1 := constantI S_ 1 1#1
  let main_v57 : IVec S_ 1 := (fun x v => Host.reduce IntOp.andi x v reducesTo_S32x16_S_d0_1 h_S_) main_v56 main_c_21
  let main_v58 : IVec S_ 1 := andi main_v53 main_v57
  let main_v59 : FVec F S16 .f32 := Host.absf main_arg13
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  main_v63

def fn_part2 {F : FTy → Type} [FloatOps F] (main_arg8 : FVec F S32x16 .f32) (main_arg9 : FVec F S16 .f32) (main_arg10 : FVec F S16x32 .f32) (main_arg11 : FVec F S32 .f32) (main_arg12 : FVec F S32x16 .f32) (main_arg13 : FVec F S16 .f32) (main_v33 : IVec S_ 1) : IVec S_ 1 :=
  let main_v34 : FVec F S32x16 .f32 := Host.absf main_arg8
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x32 .f32 := Host.absf main_arg10
  let main_cst_16 : FVec F S_ .f32 := constant S_ .f32 0x7F800000#32
  let main_v45 : FVec F S16x32 .f32 := broadcastInDim S16x32 ![] bcast_S_S16x32 main_cst_16
  let main_v46 : IVec S16x32 1 := cmpf .olt main_v44 main_v45
  let main_c_17 : IVec S_ 1 := constantI S_ 1 1#1
  let main_v47 : IVec S_ 1 := (fun x v => Host.reduce IntOp.andi x v reducesTo_S16x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_v48 main_v49 main_v50

def fn_part1 {F : FTy → Type} [FloatOps F] (main_arg5 : FVec F S16 .f32) (main_arg6 : FVec F S16x32 .f32) (main_arg7 : FVec F S32 .f32) (main_arg8 : FVec F S32x16 .f32) (main_arg9 : FVec F S16 .f32) (main_arg10 : FVec F S16x32 .f32) (main_arg11 : FVec F S32 .f32) (main_arg12 : FVec F S32x16 .f32) (main_arg13 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x32 .f32 := Host.absf main_arg6
  let main_cst_8 : FVec F S_ .f32 := constant S_ .f32 0x7F800000#32
  let main_v25 : FVec F S16x32 .f32 := broadcastInDim S16x32 ![] bcast_S_S16x32 main_cst_8
  let main_v26 : IVec S16x32 1 := cmpf .olt main_v24 main_v25
  let main_c_9 : IVec S_ 1 := constantI S_ 1 1#1
  let main_v27 : IVec S_ 1 := (fun x v => Host.reduce IntOp.andi x v reducesTo_S16x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1600000 32) (main_arg2 : FVec F S64x32 .f32) (main_arg3 : FVec F S32 .f32) (main_arg4 : FVec F S32x16 .f32) (main_arg5 : FVec F S16 .f32) (main_arg6 : FVec F S16x32 .f32) (main_arg7 : FVec F S32 .f32) (main_arg8 : FVec F S32x16 .f32) (main_arg9 : FVec F S16 .f32) (main_arg10 : FVec F S16x32 .f32) (main_arg11 : FVec F S32 .f32) (main_arg12 : FVec F S32x16 .f32) (main_arg13 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x32 : Shape := ⟨2, ![16, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x32 : Shape := ⟨2, ![1, 32]⟩
abbrev S1x16 : Shape := ⟨2, ![1, 16]⟩
abbrev S100000x16 : Shape := ⟨2, ![100000, 16]⟩
abbrev S10000x64 : Shape := ⟨2, ![10000, 64]⟩
abbrev S10000x16 : Shape := ⟨2, ![10000, 16]⟩
abbrev S10000x32 : Shape := ⟨2, ![10000, 32]⟩
abbrev S1600000x16 : Shape := ⟨2, ![1600000, 16]⟩
abbrev S5000x16 : Shape := ⟨2, ![5000, 16]⟩
abbrev S5000x32 : Shape := ⟨2, ![5000, 32]⟩

abbrev nBuf : Space → Nat
  | .hbm => 53
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S16x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x32, .f32⟩
  | .hbm, ⟨11, _⟩ => ⟨S32, .f32⟩
  | .hbm, ⟨12, _⟩ => ⟨S32x16, .f32⟩
  | .hbm, ⟨13, _⟩ => ⟨S16, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S1x32, .f32⟩
  | .hbm, ⟨32, _⟩ => ⟨S1x16, .f32⟩
  | .hbm, ⟨33, _⟩ => ⟨S100000x16, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x16, .f32⟩
  | .hbm, ⟨43, _⟩ => ⟨S_, .f32⟩
  | .hbm, ⟨44, _⟩ => ⟨S100000x16, .f32⟩
  | .hbm, ⟨45, _⟩ => ⟨S1600000x1, .i32⟩
  | .hbm, ⟨46, _⟩ => ⟨S100000x16, .f32⟩
  | .hbm, ⟨47, _⟩ => ⟨S1x32, .f32⟩
  | .hbm, ⟨48, _⟩ => ⟨S1x16, .f32⟩
  | .hbm, ⟨49, _⟩ => ⟨S1x32, .f32⟩
  | .hbm, ⟨50, _⟩ => ⟨S1x16, .f32⟩
  | .hbm, ⟨51, _⟩ => ⟨S100000x16, .f32⟩
  | .hbm, ⟨52, _⟩ => ⟨S100000x16, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x32, .f32⟩
  | .local _ .vmem, ⟨5, _⟩ => ⟨S1x32, .f32⟩
  | .local _ .vmem, ⟨6, _⟩ => ⟨S32x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S5000x16, .f32⟩
  | .local _ .vmem, ⟨14, _⟩ => ⟨S16x32, .f32⟩
  | .local _ .vmem, ⟨15, _⟩ => ⟨S1x32, .f32⟩
  | .local _ .vmem, ⟨16, _⟩ => ⟨S32x16, .f32⟩
  | .local _ .vmem, ⟨17, _⟩ => ⟨S1x16, .f32⟩
  | .local _ .vmem, ⟨18, _⟩ => ⟨S16x32, .f32⟩
  | .local _ .vmem, ⟨19, _⟩ => ⟨S1x32, .f32⟩
  | .local _ .vmem, ⟨20, _⟩ => ⟨S32x16, .f32⟩
  | .local _ .vmem, ⟨21, _⟩ => ⟨S1x16, .f32⟩
  | .local _ .vmem, ⟨22, _⟩ => ⟨S5000x16, .f32⟩
  | .local _ .vmem, ⟨23, _⟩ => ⟨S5000x16, .f32⟩
  | .local _ .vmem, ⟨24, _⟩ => ⟨S5000x16, .f32⟩
  | .local _ .vmem, ⟨25, _⟩ => ⟨S5000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31_0 : Ref sig .tc := ⟨.hbm, 51, rfl⟩
abbrev main_v31_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg10_1 : Ref sig .tc := ⟨.vmem, 23, rfl⟩
abbrev cc1_stg11_0 : Ref sig .tc := ⟨.vmem, 24, rfl⟩
abbrev cc1_stg11_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem10_1 : DmaSem sig := 23
abbrev cc1_sem11_0 : DmaSem sig := 24
abbrev cc1_sem11_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x16 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S5000x16 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S32_S1x32 : S32.ShapeCasts S1x32
  shapeCasts_S16_S1x16 : S16.ShapeCasts S1x16
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S16x32_S16x32_0_0 : ∀ a, (![0, 0] : Fin 2 → Nat) a + S16x32.size a ≤ S16x32.size a
  h_S16x32 : 0 < S16x32.numel
  broadcasts_S1x32_S5000x32 : S1x32.Broadcasts S5000x32
  broadcasts_S1x16_S5000x16 : S1x16.Broadcasts S5000x16
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  dot_S10000x32_S32x16_S10000x16_1_0_0_1_n_n_wf : DotDims.WF S10000x32 S32x16 S10000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x32_S5000x32_1_0_0_1_n_n_wf : DotDims.WF S5000x16 S16x32 S5000x32 [1] [0] [0] [1] [] []
  dot_S5000x32_S32x16_S5000x16_1_0_0_1_n_n_wf : DotDims.WF S5000x32 S32x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x16.size a ≤ S32x16.size a
  hwx0_4 : ∀ i : grid0.Coords, EltTy.bits .f32 = 32 ∨ (Rect.block (s := S32x16) S32x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x16.size a ≤ S100000x16.size a
  hwx0_6 : ∀ i : grid0.Coords, EltTy.bits .f32 = 32 ∨ (Rect.block (s := S100000x16) S10000x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x32.size a ≤ S16x32.size a
  hwx1_2 : ∀ i : grid1.Coords, EltTy.bits .f32 = 32 ∨ (Rect.block (s := S16x32) S16x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x16.size a ≤ S32x16.size a
  hwx1_4 : ∀ i : grid1.Coords, EltTy.bits .f32 = 32 ∨ (Rect.block (s := S32x16) S32x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x32.size a ≤ S16x32.size a
  hwx1_6 : ∀ i : grid1.Coords, EltTy.bits .f32 = 32 ∨ (Rect.block (s := S16x32) S16x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32x16.size a ≤ S32x16.size a
  hwx1_8 : ∀ i : grid1.Coords, EltTy.bits .f32 = 32 ∨ (Rect.block (s := S32x16) S32x16.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x16.size a ≤ S1x16.size a
  hwx1_9 : ∀ i : grid1.Coords, EltTy.bits .f32 = 32 ∨ (Rect.block (s := S1x16) S1x16.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x16.size a ≤ S100000x16.size a
  hwx1_10 : ∀ i : grid1.Coords, EltTy.bits .f32 = 32 ∨ (Rect.block (s := S100000x16) S5000x16.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x16.size a ≤ S100000x16.size a
  hwx1_11 : ∀ i : grid1.Coords, EltTy.bits .f32 = 32 ∨ (Rect.block (s := S100000x16) S5000x16.size (cc1_transform_11 i) (hinb1_11 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S10000x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S32x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S16x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S32x16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v30) S1x16.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v31_0) S5000x16.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v31_1) S5000x16.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x32 : Shape := ⟨2, ![16, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x32 : Shape := ⟨2, ![100000, 32]⟩
abbrev S1x32 : Shape := ⟨2, ![1, 32]⟩
abbrev S100000x16 : Shape := ⟨2, ![100000, 16]⟩
abbrev S1x16 : Shape := ⟨2, ![1, 16]⟩
abbrev S1600000x16 : Shape := ⟨2, ![1600000, 16]⟩

abbrev nBuf : Space → Nat
  | .hbm => 104
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S16x32, .f32⟩
  | .hbm, ⟨7, _⟩ => ⟨S32, .f32⟩
  | .hbm, ⟨8, _⟩ => ⟨S32x16, .f32⟩
  | .hbm, ⟨9, _⟩ => ⟨S16, .f32⟩
  | .hbm, ⟨10, _⟩ => ⟨S16x32, .f32⟩
  | .hbm, ⟨11, _⟩ => ⟨S32, .f32⟩
  | .hbm, ⟨12, _⟩ => ⟨S32x16, .f32⟩
  | .hbm, ⟨13, _⟩ => ⟨S16, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S100000x64, .f32⟩
  | .hbm, ⟨32, _⟩ => ⟨S100000x32, .f32⟩
  | .hbm, ⟨33, _⟩ => ⟨S1x32, .f32⟩
  | .hbm, ⟨34, _⟩ => ⟨S100000x32, .f32⟩
  | .hbm, ⟨35, _⟩ => ⟨S100000x32, .f32⟩
  | .hbm, ⟨36, _⟩ => ⟨S_, .f32⟩
  | .hbm, ⟨37, _⟩ => ⟨S100000x32, .f32⟩
  | .hbm, ⟨38, _⟩ => ⟨S100000x32, .f32⟩
  | .hbm, ⟨39, _⟩ => ⟨S100000x16, .f32⟩
  | .hbm, ⟨40, _⟩ => ⟨S1x16, .f32⟩
  | .hbm, ⟨41, _⟩ => ⟨S100000x16, .f32⟩
  | .hbm, ⟨42, _⟩ => ⟨S100000x16, .f32⟩
  | .hbm, ⟨43, _⟩ => ⟨S_, .f32⟩
  | .hbm, ⟨44, _⟩ => ⟨S100000x16, .f32⟩
  | .hbm, ⟨45, _⟩ => ⟨S100000x16, .f32⟩
  | .hbm, ⟨46, _⟩ => ⟨S1x1600000, .i32⟩
  | .hbm, ⟨47, _⟩ => ⟨S1600000, .i32⟩
  | .hbm, ⟨48, _⟩ => ⟨S1x1600000, .i32⟩
  | .hbm, ⟨49, _⟩ => ⟨S1600000, .i32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x16, .f32⟩
  | .hbm, ⟨59, _⟩ => ⟨S_, .f32⟩
  | .hbm, ⟨60, _⟩ => ⟨S100000x16, .f32⟩
  | .hbm, ⟨61, _⟩ => ⟨S1600000x1, .i32⟩
  | .hbm, ⟨62, _⟩ => ⟨S100000x16, .f32⟩
  | .hbm, ⟨63, _⟩ => ⟨S100000x16, .f32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | .hbm, ⟨68, _⟩ => ⟨S_, .f32⟩
  | .hbm, ⟨69, _⟩ => ⟨S100000x32, .f32⟩
  | .hbm, ⟨70, _⟩ => ⟨S100000x32, .f32⟩
  | .hbm, ⟨71, _⟩ => ⟨S100000x16, .f32⟩
  | .hbm, ⟨72, _⟩ => ⟨S1x16, .f32⟩
  | .hbm, ⟨73, _⟩ => ⟨S100000x16, .f32⟩
  | .hbm, ⟨74, _⟩ => ⟨S100000x16, .f32⟩
  | .hbm, ⟨75, _⟩ => ⟨S1x1600000, .i32⟩
  | .hbm, ⟨76, _⟩ => ⟨S1600000, .i32⟩
  | .hbm, ⟨77, _⟩ => ⟨S1x1600000, .i32⟩
  | .hbm, ⟨78, _⟩ => ⟨S1600000, .i32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x16, .f32⟩
  | .hbm, ⟨88, _⟩ => ⟨S_, .f32⟩
  | .hbm, ⟨89, _⟩ => ⟨S100000x16, .f32⟩
  | .hbm, ⟨90, _⟩ => ⟨S1600000x1, .i32⟩
  | .hbm, ⟨91, _⟩ => ⟨S100000x16, .f32⟩
  | .hbm, ⟨92, _⟩ => ⟨S100000x16, .f32⟩
  | .hbm, ⟨93, _⟩ => ⟨S100000x32, .f32⟩
  | .hbm, ⟨94, _⟩ => ⟨S1x32, .f32⟩
  | .hbm, ⟨95, _⟩ => ⟨S100000x32, .f32⟩
  | .hbm, ⟨96, _⟩ => ⟨S100000x32, .f32⟩
  | .hbm, ⟨97, _⟩ => ⟨S_, .f32⟩
  | .hbm, ⟨98, _⟩ => ⟨S100000x32, .f32⟩
  | .hbm, ⟨99, _⟩ => ⟨S100000x32, .f32⟩
  | .hbm, ⟨100, _⟩ => ⟨S100000x16, .f32⟩
  | .hbm, ⟨101, _⟩ => ⟨S1x16, .f32⟩
  | .hbm, ⟨102, _⟩ => ⟨S100000x16, .f32⟩
  | .hbm, ⟨103, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_3 : Ref sig .tc := ⟨.hbm, 50, rfl⟩
abbrev main_v31 : Ref sig .tc := ⟨.hbm, 51, rfl⟩
abbrev main_v32 : Ref sig .tc := ⟨.hbm, 52, rfl⟩
abbrev main_c_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_7 : Ref sig .tc := ⟨.hbm, 79, rfl⟩
abbrev main_v56 : Ref sig .tc := ⟨.hbm, 80, rfl⟩
abbrev main_v57 : Ref sig .tc := ⟨.hbm, 81, rfl⟩
abbrev main_c_8 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_9 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_10 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  dot_S100000x32_S32x16_S100000x16_1_0_0_1_n_n_wf : DotDims.WF S100000x32 S32x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x32_S100000x32_1_0_0_1_n_n_wf : DotDims.WF S100000x16 S16x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf

class Facts : Prop extends Facts₀ where

variable [Facts]
-- ==== Proof.KernelRun.lean ====
/-
  The idealized kernel's run with its two results named.

  @main is four segments: the host operations that gather and sum the neighbours' features, the first
  convolution's region, the host operations that do the same for the hidden features, and the region of the two
  output convolutions. The buffers' contents at the end are the last boundary's contents: every buffer that is not
  one of the second region's arrays as the host operations before it left it, and each of that region's arrays at
  what its write-backs leave. So every weakly fair execution terminates, faultless, with the two results at those
  contents and the arguments as launched.
-/
import proofs.«169312_j32633161515327_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with each result array at the contents of
    the last segment boundary and every argument array as launched. -/
theorem run_results : θ_run defs (onTc (τ := τ) (main (F := F))) ⟨m, fun _ => 0, ρ⟩ (fun r => ∀ c : Dev nD,
      r.2.mem ((c.tc : Thread nD τ).loc main_v31_0) = W4 m ρ c (Proc.devRef .tc main_v31_0)
      ∧ r.2.mem ((c.tc : Thread nD τ).loc main_v31_1) = W4 m ρ c (Proc.devRef .tc main_v31_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31_0 (by decide)),
       h c _ (mem_uc main_v31_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.KernelIdeal.Results

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.LibBroadcastInDim.lean ====
/-
  A `broadcast_in_dim` of small shapes read at coordinates: a scalar spread over any shape; a vector [a] set as the
  column [a, 1]; a column [a, 1] spread over b lanes to [a, b]; a vector [b] set as the row [1, b]; a row [1, b]
  spread over a rows to [a, b]. Each is the library's general lemma (the result at j is the operand at j's
  coordinates on the axes the dimension map names, 0 on the operand's unit axes) with the per-axis arithmetic
  discharged for these shapes.
-/
import Idealize.ShloMosaic.Lib.Pipeline.Value
import Idealize.ShloMosaic.Lib.ValueIdx

namespace Cert.Lib.BroadcastInDim

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector [a] set as the column [a, 1] reads, at (r, u), the vector at r. -/
theorem vec_col_apply {a : ℕ} (h : (⟨1, ![a]⟩ : Shape).BroadcastsInDim ⟨2, ![a, 1]⟩ (![0] : Fin 1 → Fin 2))
    (x : (⟨1, ![a]⟩ : Shape).Idx → α) (r : Fin a) (u : Fin 1) :
    broadcastInDim ⟨2, ![a, 1]⟩ (![0] : Fin 1 → Fin 2) h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column [a, 1] spread over b lanes reads, at (r, q), the column at r. -/
theorem col_lanes_apply {a b : ℕ} (h : (⟨2, ![a, 1]⟩ : Shape).BroadcastsInDim ⟨2, ![a, b]⟩ (![0, 1] : Fin 2 → Fin 2))
    (x : (⟨2, ![a, 1]⟩ : Shape).Idx → α) (r : Fin a) (q : Fin b) :
    broadcastInDim ⟨2, ![a, b]⟩ (![0, 1] : Fin 2 → Fin 2) h x (ix2 r q) = x (ix2 r (0 : Fin 1)) := by
  refine broadcastInDim_apply _ h x (ix2 r q) (ix2 r (0 : Fin 1)) fun ax => ?_
  match ax with
  | ⟨0, _⟩ =>
    show r.val = if a = 1 then 0 else r.val
    split
    · have := r.isLt; omega
    · rfl
  | ⟨1, _⟩ =>
    show 0 = if (1 : ℕ) = 1 then 0 else q.val
    rw [if_pos rfl]

/-- A vector [b] set as the row [1, b] reads, at (u, q), the vector at q. -/
theorem vec_row_apply {b : ℕ} (h : (⟨1, ![b]⟩ : Shape).BroadcastsInDim ⟨2, ![1, b]⟩ (![1] : Fin 1 → Fin 2))
    (x : (⟨1, ![b]⟩ : Shape).Idx → α) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread over a rows reads, at (r, q), the row at q. -/
theorem row_rows_apply {a b : ℕ} (h : (⟨2, ![1, b]⟩ : Shape).BroadcastsInDim ⟨2, ![a, b]⟩ (![0, 1] : Fin 2 → Fin 2))
    (x : (⟨2, ![1, b]⟩ : Shape).Idx → α) (r : Fin a) (q : Fin b) :
    broadcastInDim ⟨2, ![a, b]⟩ (![0, 1] : Fin 2 → Fin 2) h x (ix2 r q) = x (ix2 (0 : Fin 1) q) := by
  refine broadcastInDim_apply _ h x (ix2 r q) (ix2 (0 : Fin 1) q) fun ax => ?_
  match ax with
  | ⟨0, _⟩ =>
    show 0 = if (1 : ℕ) = 1 then 0 else r.val
    rw [if_pos rfl]
  | ⟨1, _⟩ =>
    show q.val = if b = 1 then 0 else q.val
    split
    · have := q.isLt; omega
    · rfl

end Cert.Lib.BroadcastInDim
-- ==== Proof.LibVectorAsMatrix.lean ====
/-
  Two ways of setting a vector as a one-column or a one-row matrix give the same array: a reshape [n] → [n, 1]
  and the broadcast that sends the vector's axis to axis 0 both read, at (r, u), the vector at r; a reshape
  [n] → [1, n] and the broadcast that sends the vector's axis to axis 1 both read, at (u, q), the vector at q.
-/
import proofs.«169312_j32633161515327_2_alg».proof.Proof.LibKeepdims
import proofs.«169312_j32633161515327_2_alg».proof.Proof.LibBroadcastInDim
import Idealize.ShloMosaic.Lib.ValueLayout
import Idealize.ShloMosaic.Lib.ValueIdx

namespace Cert.Lib.VectorAsMatrix

open Idealize.ShloMosaic Idealize.ShloMosaic.ValueIdx

variable {α : Type}

/-- A vector reshaped to a column is the vector broadcast along axis 0 of the column's shape. -/
theorem col_eq {n : ℕ} (x : (⟨1, ![n]⟩ : Shape).Idx → α) (h : (⟨1, ![n]⟩ : Shape).ShapeCasts ⟨2, ![n, 1]⟩)
    (h' : (⟨1, ![n]⟩ : Shape).BroadcastsInDim ⟨2, ![n, 1]⟩ (![0] : Fin 1 → Fin 2)) :
    shapeCast ⟨2, ![n, 1]⟩ x h = broadcastInDim ⟨2, ![n, 1]⟩ (![0] : Fin 1 → Fin 2) h' x := by
  funext j
  obtain ⟨r, u, rfl⟩ : ∃ (r : Fin n) (u : Fin 1), j = ix2 r u := ⟨j 0, j 1, eq_ix2 j⟩
  rw [Cert.Lib.Keepdims.shapeCast_a_a1_apply, Cert.Lib.BroadcastInDim.vec_col_apply]

/-- A vector reshaped to a row is the vector broadcast along axis 1 of the row's shape. -/
theorem row_eq {n : ℕ} (x : (⟨1, ![n]⟩ : Shape).Idx → α) (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ (![1] : Fin 1 → Fin 2) h' x := by
  funext j
  obtain ⟨u, q, rfl⟩ : ∃ (u : Fin 1) (q : Fin n), j = ix2 u q := ⟨j 0, j 1, eq_ix2 j⟩
  rw [shapeCast_a_1a_apply, Cert.Lib.BroadcastInDim.vec_row_apply]

end Cert.Lib.VectorAsMatrix
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.LibLinearLayer.lean ====
/-
  A linear map with bias and a rectifier on the extended reals, and the two ways they are printed.

  `lin a W b c` is one output of a linear map with bias: the row `a` of `K` entries against column `c` of the weights
  `W` (`K × C`), plus entry `c` of the bias, which is held as one row `[1, C]`. `relu z` is `max z 0`.

  On the matrix unit a linear layer is a product into the zero accumulator of two operands whose format was
  narrowed first (the identity at exact arithmetic), plus the bias row spread over the rows: read at `(p, c)` it is
  `lin` of row `p` of the left operand (`unit_lin_apply`). On the host it is a general product plus the bias row
  spread by a broadcast along both axes: read at `(p, c)` it is the same (`host_lin_apply`). Both for every number
  of rows, of inputs and of outputs; the dimension numbers are those of a plain product, given as an equation so
  that a printed record passes with `rfl`. The rectifier is the maximum with the zero word, spread as a scalar on
  the matrix unit (`relu_unit`) and broadcast from a constant on the host (`relu_host`), in any shape.
-/
import proofs.«169312_j32633161515327_2_alg».proof.Proof.LibPlainDot
import proofs.«169312_j32633161515327_2_alg».proof.Proof.LibBroadcastInDim
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.Gin

open Idealize.ShloMosaic Idealize.ShloMosaic.ValueIdx

/-- A matrix of extended reals with `a` rows and `b` columns, by index. -/
abbrev Mat (a b : ℕ) : Type := (⟨2, ![a, b]⟩ : Shape).Idx → EReal

/-- One output of a linear map with bias: the row `a` against column `c` of `W`, plus the bias row's entry `c`. -/
def lin {K C : ℕ} (a : Fin K → EReal) (W : Mat K C) (b : Mat 1 C) (c : Fin C) : EReal :=
  (∑ j : Fin K, a j * W (ix2 j c)) + b (ix2 (0 : Fin 1) c)

/-- The rectifier. -/
def relu (z : EReal) : EReal := max z 0

/-- On the matrix unit: a block of `M` rows, its format changed (the identity at exact arithmetic), times the
    weights, likewise, into the zero accumulator, plus the bias row spread over the rows, is `lin` of the block's
    row. The dimension numbers are those of a plain product, given as an equation so that a printed record
    passes with `rfl`. -/
theorem unit_lin_apply {M K C : ℕ} (d : DotDims ⟨2, ![M, K]⟩ ⟨2, ![K, C]⟩ ⟨2, ![M, C]⟩) (hd : d = DotDims.plain M K C)
    (A : FVec Ideal ⟨2, ![M, K]⟩ .f32) (W : FVec Ideal ⟨2, ![K, C]⟩ .f32) (b : FVec Ideal ⟨2, ![1, C]⟩ .f32)
    (hbits : FTy.bits .bf16 < FTy.bits .f32)
    (hb : (⟨2, ![1, C]⟩ : Shape).ShapeCasts ⟨2, ![1, C]⟩) (hbb : (⟨2, ![1, C]⟩ : Shape).Broadcasts ⟨2, ![M, C]⟩)
    (p : Fin M) (c : Fin C) :
    addf (matmul d none (truncf .bf16 A hbits) (truncf .bf16 W hbits) (constant ⟨2, ![M, C]⟩ .f32 0x00000000#32))
        (broadcastTo ⟨2, ![M, C]⟩ (shapeCast ⟨2, ![1, C]⟩ b hb) hbb) (ix2 p c)
      = lin (fun j => A (ix2 p j)) W b c := by
  subst hd
  rw [addf_apply, shapeCast_self, broadcastTo_1b_ab_apply]
  exact congrArg (· + b (ix2 (0 : Fin 1) c))
    (Cert.Lib.PlainDot.matmul_plain_zero_apply none (truncf .bf16 A hbits) (truncf .bf16 W hbits) p c)

/-- On the host: a general product of plain dimension numbers plus the bias row spread over the rows by a
    broadcast along both axes is `lin` of the left operand's row. -/
theorem host_lin_apply {M K C : ℕ} (d : DotDims ⟨2, ![M, K]⟩ ⟨2, ![K, C]⟩ ⟨2, ![M, C]⟩) (hd : d = DotDims.plain M K C)
    (sched : HostSchedule) (A : FVec Ideal ⟨2, ![M, K]⟩ .f32) (W : FVec Ideal ⟨2, ![K, C]⟩ .f32) (b : FVec Ideal ⟨2, ![1, C]⟩ .f32)
    (hbb : (⟨2, ![1, C]⟩ : Shape).BroadcastsInDim ⟨2, ![M, C]⟩ (![0, 1] : Fin 2 → Fin 2)) (p : Fin M) (c : Fin C) :
    addf (FloatOps.dotGeneral d none sched A W) (broadcastInDim ⟨2, ![M, C]⟩ (![0, 1] : Fin 2 → Fin 2) hbb b) (ix2 p c)
      = lin (fun j => A (ix2 p j)) W b c := by
  subst hd
  rw [addf_apply, Cert.Lib.BroadcastInDim.row_rows_apply]
  exact congrArg (· + b (ix2 (0 : Fin 1) c)) (Cert.Lib.PlainDot.dotGeneral_plain_apply none sched A W p c)

/-- The matrix unit's rectifier: the maximum with the scalar zero word spread over the shape. -/
theorem relu_unit {s : Shape} (v : FVec Ideal s .f32) (i : s.Idx) :
    maximumf v (broadcast s (Scalar.ofBits (F := Ideal) .f32 0x00000000#32)) i = relu (v i) := by
  show max (v i) (Ideal.ofBits .f32 0x00000000#32) = max (v i) 0
  rw [Ideal.ofBits_zero_f32]

/-- The host's rectifier: the maximum with the zero constant broadcast to the shape. -/
theorem relu_host {s : Shape} (v : FVec Ideal s .f32) (h : (⟨0, ![]⟩ : Shape).BroadcastsInDim s (![] : Fin 0 → Fin s.rank))
    (i : s.Idx) :
    maximumf v (broadcastInDim s (![] : Fin 0 → Fin s.rank) h (constant (F := Ideal) ⟨0, ![]⟩ .f32 0x00000000#32)) i = relu (v i) := by
  rw [maximumf_apply, Cert.Lib.BroadcastInDim.scalar_apply, constant_apply, Ideal.ofBits_zero_f32]
  rfl

end Cert.Gin

end
-- ==== Proof.Layer.lean ====
/-
  The arithmetic of one graph-isomorphism convolution, as functions on the extended reals.

  A node's new feature vector depends only on that node's own row: the row `x r` of the features plus the row
  `agg r` of the summed neighbour features goes through a linear map with bias, a rectifier, and a second linear
  map with bias (`lin` and `relu`). The first convolution (`conv1`: 64 features, 32 hidden, 16 out) ends in a second
  rectifier, the two output convolutions (`convOut`: 16, 32, 16) do not. Both are stated for any number of rows
  `N`, so that the same function describes a block of rows and the whole array (`conv1_rows`, `convOut_rows`: an
  entry of the result is decided by the matching rows of the two row-indexed operands).
-/
import proofs.«169312_j32633161515327_2_alg».proof.Proof.LibLinearLayer

noncomputable section

open scoped BigOperators

namespace Cert.Gin

open Idealize.ShloMosaic Idealize.ShloMosaic.ValueIdx

/-- The first convolution, with the rectifier that follows it: 64 features to 32 hidden to 16. -/
def conv1 {N : ℕ} (x agg : Mat N 64) (W1 : Mat 64 32) (b1 : Mat 1 32) (W2 : Mat 32 16) (b2 : Mat 1 16) : Mat N 16 :=
  fun i => relu (lin (fun k => relu (lin (fun j => x (ix2 (i 0) j) + agg (ix2 (i 0) j)) W1 b1 k)) W2 b2 (i 1))

/-- An output convolution: 16 features to 32 hidden to 16, no rectifier at the end. -/
def convOut {N : ℕ} (h agg : Mat N 16) (W1 : Mat 16 32) (b1 : Mat 1 32) (W2 : Mat 32 16) (b2 : Mat 1 16) : Mat N 16 :=
  fun i => lin (fun k => relu (lin (fun j => h (ix2 (i 0) j) + agg (ix2 (i 0) j)) W1 b1 k)) W2 b2 (i 1)

/-- An entry of the first convolution is decided by the matching rows of the features and of the neighbour sums. -/
theorem conv1_rows {N N' : ℕ} (x agg : Mat N 64) (x' agg' : Mat N' 64) (W1 : Mat 64 32) (b1 : Mat 1 32)
    (W2 : Mat 32 16) (b2 : Mat 1 16) (r : Fin N) (r' : Fin N') (c : Fin 16)
    (hx : ∀ j : Fin 64, x (ix2 r j) = x' (ix2 r' j)) (ha : ∀ j : Fin 64, agg (ix2 r j) = agg' (ix2 r' j)) :
    conv1 x agg W1 b1 W2 b2 (ix2 r c) = conv1 x' agg' W1 b1 W2 b2 (ix2 r' c) := by
  show relu (lin (fun k => relu (lin (fun j => x (ix2 r j) + agg (ix2 r j)) W1 b1 k)) W2 b2 c)
    = relu (lin (fun k => relu (lin (fun j => x' (ix2 r' j) + agg' (ix2 r' j)) W1 b1 k)) W2 b2 c)
  have e : (fun j => x (ix2 r j) + agg (ix2 r j)) = fun j => x' (ix2 r' j) + agg' (ix2 r' j) :=
    funext fun j => by rw [hx j, ha j]
  rw [e]

/-- An entry of an output convolution is decided by the matching rows of its two row-indexed operands. -/
theorem convOut_rows {N N' : ℕ} (h agg : Mat N 16) (h' agg' : Mat N' 16) (W1 : Mat 16 32) (b1 : Mat 1 32)
    (W2 : Mat 32 16) (b2 : Mat 1 16) (r : Fin N) (r' : Fin N') (c : Fin 16)
    (hh : ∀ j : Fin 16, h (ix2 r j) = h' (ix2 r' j)) (ha : ∀ j : Fin 16, agg (ix2 r j) = agg' (ix2 r' j)) :
    convOut h agg W1 b1 W2 b2 (ix2 r c) = convOut h' agg' W1 b1 W2 b2 (ix2 r' c) := by
  show lin (fun k => relu (lin (fun j => h (ix2 r j) + agg (ix2 r j)) W1 b1 k)) W2 b2 c
    = lin (fun k => relu (lin (fun j => h' (ix2 r' j) + agg' (ix2 r' j)) W1 b1 k)) W2 b2 c
  have e : (fun j => h (ix2 r j) + agg (ix2 r j)) = fun j => h' (ix2 r' j) + agg' (ix2 r' j) :=
    funext fun j => by rw [hh j, ha j]
  rw [e]

end Cert.Gin

end
-- ==== Proof.Block1.lean ====
/-
  What one grid point of the output convolutions' region computes.

  The body loads a block of 5000 rows of the hidden features and of their neighbour sums, and for each of the two
  outputs two weight matrices and two bias rows; it stores one block of 5000 rows of each output. The sum of the
  two row blocks is formed once and shared. Each stored payload is, entry by entry, an output convolution of the
  loaded blocks: the shared sum through the matrix unit with that output's first weights and bias row, the
  rectifier, and the matrix unit again with its second weights and bias row.
-/
import proofs.«169312_j32633161515327_2_alg».proof.Proof.Gen.KernelIdeal.Skeleton
import proofs.«169312_j32633161515327_2_alg».proof.Proof.Layer

noncomputable section

namespace Cert.KernelIdeal.Blocks

open Cert.KernelIdeal Cert.KernelIdeal.Gen Cert.Gin
open Idealize.ShloMosaic Idealize.ShloMosaic.ValueIdx

/-- The shared sum of the two row blocks, read at an entry. -/
theorem sum1_apply (x0 x1 : Vec Ideal S5000x16 .f32) (p : Fin 5000) (j : Fin 16) :
    addf (F := Ideal) (φ := .f32) (shapeCast S5000x16 x0 shapeCasts_S5000x16_S5000x16) (shapeCast S5000x16 x1 shapeCasts_S5000x16_S5000x16) (ix2 p j)
      = x0 (ix2 p j) + x1 (ix2 p j) := by
  rw [shapeCast_self, shapeCast_self]; rfl

/-- The first output's payload is the output convolution of the blocks it loaded. -/
theorem pay1_mu_eq (x0 x1 : Vec Ideal S5000x16 .f32) (x2 : Vec Ideal S16x32 .f32) (x3 : Vec Ideal S1x32 .f32)
    (x4 : Vec Ideal S32x16 .f32) (x5 : Vec Ideal S1x16 .f32) :
    k1_pay3 (F := Ideal) x0 x1 x2 x3 x4 x5 = convOut (N := 5000) x0 x1 x2 x3 x4 x5 := by
  funext i
  obtain ⟨p, c, rfl⟩ : ∃ (p : Fin 5000) (c : Fin 16), i = ix2 p c := ⟨i 0, i 1, eq_ix2 i⟩
  unfold k1_pay3 k1_pay2
  show addf (F := Ideal) (matmul dot_S5000x32_S32x16_S5000x16_1_0_0_1_n_n none
        (truncf .bf16 (maximumf (addf (matmul dot_S5000x16_S16x32_S5000x32_1_0_0_1_n_n none
            (truncf .bf16 (addf (shapeCast S5000x16 x0 shapeCasts_S5000x16_S5000x16)
              (shapeCast S5000x16 x1 shapeCasts_S5000x16_S5000x16)) bitsLt_bf16_f32)
            (truncf .bf16 x2 bitsLt_bf16_f32) (constant S5000x32 .f32 0x00000000#32))
          (broadcastTo S5000x32 (shapeCast S1x32 x3 shapeCasts_S1x32_S1x32) broadcasts_S1x32_S5000x32))
          (broadcast S5000x32 (Scalar.ofBits .f32 0x00000000#32))) bitsLt_bf16_f32)
        (truncf .bf16 x4 bitsLt_bf16_f32) (constant S5000x16 .f32 0x00000000#32))
      (broadcastTo S5000x16 (shapeCast S1x16 x5 shapeCasts_S1x16_S1x16) broadcasts_S1x16_S5000x16) (ix2 p c)
    = lin (fun k => relu (lin (fun j => x0 (ix2 p j) + x1 (ix2 p j)) x2 x3 k)) x4 x5 c
  refine (unit_lin_apply dot_S5000x32_S32x16_S5000x16_1_0_0_1_n_n rfl _ x4 x5 _ _ _ p c).trans ?_
  refine congrArg (fun a => lin a x4 x5 c) (funext fun k => ?_)
  refine (relu_unit _ _).trans (congrArg relu ?_)
  refine (unit_lin_apply dot_S5000x16_S16x32_S5000x32_1_0_0_1_n_n rfl _ x2 x3 _ _ _ p k).trans ?_
  exact congrArg (fun a => lin a x2 x3 k) (funext fun j => sum1_apply x0 x1 p j)

/-- The second output's payload is the output convolution of the blocks it loaded. -/
theorem pay1_ls_eq (x0 x1 : Vec Ideal S5000x16 .f32) (x6 : Vec Ideal S16x32 .f32) (x7 : Vec Ideal S1x32 .f32)
    (x8 : Vec Ideal S32x16 .f32) (x9 : Vec Ideal S1x16 .f32) :
    k1_pay1 (F := Ideal) (k1_pay4 x0 x1 x6 x7) x8 x9 = convOut (N := 5000) x0 x1 x6 x7 x8 x9 := by
  funext i
  obtain ⟨p, c, rfl⟩ : ∃ (p : Fin 5000) (c : Fin 16), i = ix2 p c := ⟨i 0, i 1, eq_ix2 i⟩
  unfold k1_pay1 k1_pay4 k1_pay2
  show addf (F := Ideal) (matmul dot_S5000x32_S32x16_S5000x16_1_0_0_1_n_n none
        (truncf .bf16 (maximumf (addf (matmul dot_S5000x16_S16x32_S5000x32_1_0_0_1_n_n none
            (truncf .bf16 (addf (shapeCast S5000x16 x0 shapeCasts_S5000x16_S5000x16)
              (shapeCast S5000x16 x1 shapeCasts_S5000x16_S5000x16)) bitsLt_bf16_f32)
            (truncf .bf16 x6 bitsLt_bf16_f32) (constant S5000x32 .f32 0x00000000#32))
          (broadcastTo S5000x32 (shapeCast S1x32 x7 shapeCasts_S1x32_S1x32) broadcasts_S1x32_S5000x32))
          (broadcast S5000x32 (Scalar.ofBits .f32 0x00000000#32))) bitsLt_bf16_f32)
        (truncf .bf16 x8 bitsLt_bf16_f32) (constant S5000x16 .f32 0x00000000#32))
      (broadcastTo S5000x16 (shapeCast S1x16 x9 shapeCasts_S1x16_S1x16) broadcasts_S1x16_S5000x16) (ix2 p c)
    = lin (fun k => relu (lin (fun j => x0 (ix2 p j) + x1 (ix2 p j)) x6 x7 k)) x8 x9 c
  refine (unit_lin_apply dot_S5000x32_S32x16_S5000x16_1_0_0_1_n_n rfl _ x8 x9 _ _ _ p c).trans ?_
  refine congrArg (fun a => lin a x8 x9 c) (funext fun k => ?_)
  refine (relu_unit _ _).trans (congrArg relu ?_)
  refine (unit_lin_apply dot_S5000x16_S16x32_S5000x32_1_0_0_1_n_n rfl _ x6 x7 _ _ _ p k).trans ?_
  exact congrArg (fun a => lin a x6 x7 k) (funext fun j => sum1_apply x0 x1 p j)

end Cert.KernelIdeal.Blocks

end
-- ==== Proof.Block0.lean ====
/-
  What one grid point of the first convolution's region computes.

  The body loads a block of 10000 rows of the features and of the neighbour sums, the two weight matrices and the
  two bias rows, and stores one block of 10000 rows of the result. Its one payload is, entry by entry, the first
  convolution of the loaded blocks: the sum of the two row blocks through the matrix unit with the first weights
  and bias row, the rectifier, the matrix unit again with the second weights and bias row, the rectifier.
-/
import proofs.«169312_j32633161515327_2_alg».proof.Proof.Gen.KernelIdeal.Skeleton
import proofs.«169312_j32633161515327_2_alg».proof.Proof.Layer

noncomputable section

namespace Cert.KernelIdeal.Blocks

open Cert.KernelIdeal Cert.KernelIdeal.Gen Cert.Gin
open Idealize.ShloMosaic Idealize.ShloMosaic.ValueIdx

/-- The first region's payload is the first convolution of the blocks it loaded. -/
theorem pay0_eq (x0 x1 : Vec Ideal S10000x64 .f32) (x2 : Vec Ideal S64x32 .f32) (x3 : Vec Ideal S1x32 .f32)
    (x4 : Vec Ideal S32x16 .f32) (x5 : Vec Ideal S1x16 .f32) :
    k0_pay1 (F := Ideal) x0 x1 x2 x3 x4 x5 = conv1 (N := 10000) x0 x1 x2 x3 x4 x5 := by
  funext i
  obtain ⟨p, c, rfl⟩ : ∃ (p : Fin 10000) (c : Fin 16), i = ix2 p c := ⟨i 0, i 1, eq_ix2 i⟩
  unfold k0_pay1
  show maximumf (F := Ideal) (addf (matmul dot_S10000x32_S32x16_S10000x16_1_0_0_1_n_n none
        (truncf .bf16 (maximumf (addf (matmul dot_S10000x64_S64x32_S10000x32_1_0_0_1_n_n none
            (truncf .bf16 (addf x0 (shapeCast S10000x64 x1 shapeCasts_S10000x64_S10000x64)) bitsLt_bf16_f32)
            (truncf .bf16 x2 bitsLt_bf16_f32) (constant S10000x32 .f32 0x00000000#32))
          (broadcastTo S10000x32 (shapeCast S1x32 x3 shapeCasts_S1x32_S1x32) broadcasts_S1x32_S10000x32))
          (broadcast S10000x32 (Scalar.ofBits .f32 0x00000000#32))) bitsLt_bf16_f32)
        (truncf .bf16 x4 bitsLt_bf16_f32) (constant S10000x16 .f32 0x00000000#32))
      (broadcastTo S10000x16 (shapeCast S1x16 x5 shapeCasts_S1x16_S1x16) broadcasts_S1x16_S10000x16))
      (broadcast S10000x16 (Scalar.ofBits .f32 0x00000000#32)) (ix2 p c)
    = relu (lin (fun k => relu (lin (fun j => x0 (ix2 p j) + x1 (ix2 p j)) x2 x3 k)) x4 x5 c)
  refine (relu_unit _ _).trans (congrArg relu ?_)
  refine (unit_lin_apply dot_S10000x32_S32x16_S10000x16_1_0_0_1_n_n rfl _ x4 x5 _ _ _ p c).trans ?_
  refine congrArg (fun a => lin a x4 x5 c) (funext fun k => ?_)
  refine (relu_unit _ _).trans (congrArg relu ?_)
  refine (unit_lin_apply dot_S10000x64_S64x32_S10000x32_1_0_0_1_n_n rfl _ x2 x3 _ _ _ p k).trans ?_
  refine congrArg (fun a => lin a x2 x3 k) (funext fun j => ?_)
  show addf (F := Ideal) x0 (shapeCast S10000x64 x1 shapeCasts_S10000x64_S10000x64) (ix2 p j) = x0 (ix2 p j) + x1 (ix2 p j)
  rw [shapeCast_self]; rfl

end Cert.KernelIdeal.Blocks

end
-- ==== Proof.Region0.lean ====
/-
  The first convolution's region: from blocks to the array.

  The region has ten grid points. Point `t` is handed rows `10000·t … 10000·t + 9999` of the features and of the
  neighbour sums, the whole of each weight matrix and bias row, and writes back rows `10000·t … 10000·t + 9999` of
  the result. The block it writes is the first convolution of the blocks it was handed; since an entry of that
  convolution is decided by the matching rows alone, this is the block of the first convolution of the whole
  arrays. The ten blocks tile the hundred thousand rows, so the result array ends holding the first convolution
  of the arrays the region found, whatever those are (`V`).
-/
import proofs.«169312_j32633161515327_2_alg».proof.Proof.Gen.KernelIdeal.Frame
import proofs.«169312_j32633161515327_2_alg».proof.Proof.Block0

set_option maxRecDepth 16384

noncomputable section

namespace Cert.KernelIdeal.Arrays

open Cert.KernelIdeal Cert.KernelIdeal.Gen Cert.KernelIdeal.Blocks Cert.Gin
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem offset_zero : (![0, 0] : Fin 2 → Nat) = fun _ => 0 := funext fun a => by fin_cases a <;> rfl

/-- The printed index maps over the grid: the row-indexed windows sit at block `t`, the others at block 0. -/
theorem index_maps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt0 (t : Fin cfg0.N) : t.val < 10 := lt_of_lt_of_eq t.isLt N_0

/-- WHAT POINT `t` WRITES BACK is block `t` of the first convolution of the arrays as the region finds them. -/
theorem flushed0_eq (c : Dev nD) (t : Fin cfg0.N) :
    (dat0 V c).flushed 6 t = ((cfg0.win 6).blk t).view.read (Elt Ideal)
      (conv1 (N := 100000) (V c main_arg0) (V c main_v13) (V c main_arg2) (V c main_v14) (V c main_arg4) (V c main_v15)) := by
  show (cfg0.win 6).cut (grid0.coords t) ((dat0 V c).after 6 t) = _
  rw [after0_6]
  unfold out0_6
  rw [View.canon_unit_zero offset_zero]
  simp only [View.ld_unit_zero (S := S10000x64) offset_zero, View.ld_unit_zero (S := S64x32) offset_zero,
    View.ld_unit_zero (S := S1x32) offset_zero, View.ld_unit_zero (S := S32x16) offset_zero,
    View.ld_unit_zero (S := S1x16) offset_zero]
  rw [pay0_eq]
  obtain ⟨e00, e01, e10, e11, e20, e21, e30, e31, e40, e41, e50, e51, e60, e61⟩ := index_maps0 t
  have ht := point_lt0 t
  -- the whole-array windows' blocks are the arrays
  have w2 : iblk0 V c 2 t = V c main_arg2 := by
    funext y
    show V c main_arg2 (((cfg0.win 2).blk t).view.emb y) = V c main_arg2 y
    refine congrArg (V c main_arg2) (funext fun a => Fin.ext ?_)
    match a with
    | ⟨0, _⟩ => show win0_2.index t (0 : Fin 2) * 64 + 1 * (y 0).val = (y 0).val; omega
    | ⟨1, _⟩ => show win0_2.index t (1 : Fin 2) * 32 + 1 * (y 1).val = (y 1).val; omega
  have w3 : iblk0 V c 3 t = V c main_v14 := by
    funext y
    show V c main_v14 (((cfg0.win 3).blk t).view.emb y) = V c main_v14 y
    refine congrArg (V c main_v14) (funext fun a => Fin.ext ?_)
    match a with
    | ⟨0, _⟩ => show win0_3.index t (0 : Fin 2) * 1 + 1 * (y 0).val = (y 0).val; omega
    | ⟨1, _⟩ => show win0_3.index t (1 : Fin 2) * 32 + 1 * (y 1).val = (y 1).val; omega
  have w4 : iblk0 V c 4 t = V c main_arg4 := by
    funext y
    show V c main_arg4 (((cfg0.win 4).blk t).view.emb y) = V c main_arg4 y
    refine congrArg (V c main_arg4) (funext fun a => Fin.ext ?_)
    match a with
    | ⟨0, _⟩ => show win0_4.index t (0 : Fin 2) * 32 + 1 * (y 0).val = (y 0).val; omega
    | ⟨1, _⟩ => show win0_4.index t (1 : Fin 2) * 16 + 1 * (y 1).val = (y 1).val; omega
  have w5 : iblk0 V c 5 t = V c main_v15 := by
    funext y
    show V c main_v15 (((cfg0.win 5).blk t).view.emb y) = V c main_v15 y
    refine congrArg (V c main_v15) (funext fun a => Fin.ext ?_)
    match a with
    | ⟨0, _⟩ => show win0_5.index t (0 : Fin 2) * 1 + 1 * (y 0).val = (y 0).val; omega
    | ⟨1, _⟩ => show win0_5.index t (1 : Fin 2) * 16 + 1 * (y 1).val = (y 1).val; omega
  rw [w2, w3, w4, w5]
  refine funext fun (y : S10000x16.Idx) => ?_
  obtain ⟨p, q, rfl⟩ : ∃ (p : Fin 10000) (q : Fin 16), y = ix2 p q := ⟨y 0, y 1, eq_ix2 y⟩
  have hp : p.val < 10000 := p.isLt
  show conv1 (N := 10000) (iblk0 V c 0 t) (iblk0 V c 1 t) (V c main_arg2) (V c main_v14) (V c main_arg4) (V c main_v15) (ix2 p q)
    = conv1 (N := 100000) (V c main_arg0) (V c main_v13) (V c main_arg2) (V c main_v14) (V c main_arg4) (V c main_v15)
        (((cfg0.win 6).blk t).view.emb (ix2 p q))
  have e6 : ((cfg0.win 6).blk t).view.emb (ix2 p q) = ix2 (⟨t.val * 10000 + p.val, by omega⟩ : Fin 100000) q := by
    funext a; apply Fin.ext
    match a with
    | ⟨0, _⟩ => show win0_6.index t (0 : Fin 2) * 10000 + 1 * p.val = t.val * 10000 + p.val; omega
    | ⟨1, _⟩ => show win0_6.index t (1 : Fin 2) * 16 + 1 * q.val = q.val; omega
  rw [e6]
  refine conv1_rows _ _ _ _ _ _ _ _ p _ q (fun j => ?_) (fun j => ?_)
  · show V c main_arg0 (((cfg0.win 0).blk t).view.emb (ix2 p j)) = _
    refine congrArg (V c main_arg0) (funext fun a => Fin.ext ?_)
    match a with
    | ⟨0, _⟩ => show win0_0.index t (0 : Fin 2) * 10000 + 1 * p.val = t.val * 10000 + p.val; omega
    | ⟨1, _⟩ => show win0_0.index t (1 : Fin 2) * 64 + 1 * j.val = j.val; omega
  · show V c main_v13 (((cfg0.win 1).blk t).view.emb (ix2 p j)) = _
    refine congrArg (V c main_v13) (funext fun a => Fin.ext ?_)
    match a with
    | ⟨0, _⟩ => show win0_1.index t (0 : Fin 2) * 10000 + 1 * p.val = t.val * 10000 + p.val; omega
    | ⟨1, _⟩ => show win0_1.index t (1 : Fin 2) * 64 + 1 * j.val = j.val; omega

/-- An index of the result array is in point `t`'s block iff each coordinate is in the block's range on its axis. -/
theorem mem_blk0 (t : Fin cfg0.N) (i : S100000x16.Idx) :
    i ∈ ((cfg0.win 6).blk t).view.set ↔ ∀ a : Fin 2, win0_6.index t a * S10000x16.size a ≤ (i a).val
      ∧ (i a).val < win0_6.index t a * S10000x16.size a + S10000x16.size a := by
  show i ∈ ((View.whole main_v16).slice (win0_6.rect t)).set ↔ _
  rw [View.set_slice_whole, Rect.mem_set_unit]
  exact Iff.rfl

/-- Every row of the result is in the block of the point numbered by its ten-thousands. -/
theorem cover0 (i : S100000x16.Idx) :
    ∃ t : Fin cfg0.N, (cfg0.win 6).flush t = true ∧ i ∈ ((cfg0.win 6).blk t).view.set := by
  have hi0 : (i 0).val < 100000 := (i 0).isLt
  have hi1 : (i 1).val < 16 := (i 1).isLt
  have hN : (i 0).val / 10000 < cfg0.N := by rw [show cfg0.N = 10 from N_0]; omega
  obtain ⟨e00, e01, e10, e11, e20, e21, e30, e31, e40, e41, e50, e51, e60, e61⟩ := index_maps0 ⟨(i 0).val / 10000, hN⟩
  refine ⟨⟨(i 0).val / 10000, hN⟩, flush0_6 _, ?_⟩
  rw [mem_blk0]
  intro a
  match a with
  | ⟨0, _⟩ =>
    show win0_6.index ⟨(i 0).val / 10000, hN⟩ (0 : Fin 2) * 10000 ≤ (i 0).val
      ∧ (i 0).val < win0_6.index ⟨(i 0).val / 10000, hN⟩ (0 : Fin 2) * 10000 + 10000
    rw [e60]
    show (i 0).val / 10000 * 10000 ≤ (i 0).val ∧ (i 0).val < (i 0).val / 10000 * 10000 + 10000
    omega
  | ⟨1, _⟩ =>
    show win0_6.index ⟨(i 0).val / 10000, hN⟩ (1 : Fin 2) * 16 ≤ (i 1).val
      ∧ (i 1).val < win0_6.index ⟨(i 0).val / 10000, hN⟩ (1 : Fin 2) * 16 + 16
    omega

/-- THE RESULT ARRAY of the first region: the first convolution of the arrays the region found. -/
theorem final0 (c : Dev nD) :
    (dat0 V c).arrAt 6 cfg0.N
      = conv1 (N := 100000) (V c main_arg0) (V c main_v13) (V c main_arg2) (V c main_v14) (V c main_arg4) (V c main_v15) :=
  (dat0 V c).arrAt_eq_of_cover 6 _ (fun t _ => flushed0_eq V c t) cover0

end Cert.KernelIdeal.Arrays

end
-- ==== Proof.Region1.lean ====
/-
  The output convolutions' region: from blocks to the arrays.

  The region has twenty grid points. Point `t` is handed rows `5000·t … 5000·t + 4999` of the hidden features and
  of their neighbour sums, the whole of each of the four weight matrices and four bias rows, and writes back rows
  `5000·t … 5000·t + 4999` of each of the two results. Each block it writes is an output convolution of the blocks
  it was handed, hence — an entry being decided by the matching rows alone — the block of the output convolution
  of the whole arrays. The twenty blocks tile the hundred thousand rows, so each result array ends holding the
  output convolution, with its own weights and bias rows, of the arrays the region found (`V`).
-/
import proofs.«169312_j32633161515327_2_alg».proof.Proof.Gen.KernelIdeal.Frame
import proofs.«169312_j32633161515327_2_alg».proof.Proof.Block1
import proofs.«169312_j32633161515327_2_alg».proof.Proof.Region0

set_option maxRecDepth 16384

noncomputable section

namespace Cert.KernelIdeal.Arrays

open Cert.KernelIdeal Cert.KernelIdeal.Gen Cert.KernelIdeal.Blocks Cert.Gin
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The printed index maps over the grid: the row-indexed windows sit at block `t`, the others at block 0. -/
theorem index_maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0
    ∧ win1_11.index t (0 : Fin 2) = t.val ∧ win1_11.index t (1 : Fin 2) = 0 :=
  (by decide +kernel : ∀ t : Fin grid1.N, _)

theorem point_lt1 (t : Fin cfg1.N) : t.val < 20 := lt_of_lt_of_eq t.isLt N_1

/-- WHAT POINT `t` WRITES BACK to the first result is block `t` of the output convolution, with the first set of weights, of the arrays as the region finds them. -/
theorem flushed1_mu_eq (c : Dev nD) (t : Fin cfg1.N) :
    (dat1 V c).flushed 10 t = ((cfg1.win 10).blk t).view.read (Elt Ideal)
      (convOut (N := 100000) (V c main_v16) (V c main_v26) (V c main_arg6) (V c main_v27) (V c main_arg8) (V c main_v28)) := by
  show (cfg1.win 10).cut (grid1.coords t) ((dat1 V c).after 10 t) = _
  rw [after1_10]
  unfold out1_10
  rw [View.canon_unit_zero offset_zero]
  simp only [View.ld_unit_zero (S := S5000x16) offset_zero, View.ld_unit_zero (S := S16x32) offset_zero,
    View.ld_unit_zero (S := S1x32) offset_zero, View.ld_unit_zero (S := S32x16) offset_zero,
    View.ld_unit_zero (S := S1x16) offset_zero]
  rw [pay1_mu_eq]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := index_maps1 t
  have ht := point_lt1 t
  have w2 : iblk1 V c 2 t = V c main_arg6 := by
    funext y
    show V c main_arg6 (((cfg1.win 2).blk t).view.emb y) = V c main_arg6 y
    refine congrArg (V c main_arg6) (funext fun a => Fin.ext ?_)
    match a with
    | ⟨0, _⟩ => show win1_2.index t (0 : Fin 2) * 16 + 1 * (y 0).val = (y 0).val; omega
    | ⟨1, _⟩ => show win1_2.index t (1 : Fin 2) * 32 + 1 * (y 1).val = (y 1).val; omega
  have w3 : iblk1 V c 3 t = V c main_v27 := by
    funext y
    show V c main_v27 (((cfg1.win 3).blk t).view.emb y) = V c main_v27 y
    refine congrArg (V c main_v27) (funext fun a => Fin.ext ?_)
    match a with
    | ⟨0, _⟩ => show win1_3.index t (0 : Fin 2) * 1 + 1 * (y 0).val = (y 0).val; omega
    | ⟨1, _⟩ => show win1_3.index t (1 : Fin 2) * 32 + 1 * (y 1).val = (y 1).val; omega
  have w4 : iblk1 V c 4 t = V c main_arg8 := by
    funext y
    show V c main_arg8 (((cfg1.win 4).blk t).view.emb y) = V c main_arg8 y
    refine congrArg (V c main_arg8) (funext fun a => Fin.ext ?_)
    match a with
    | ⟨0, _⟩ => show win1_4.index t (0 : Fin 2) * 32 + 1 * (y 0).val = (y 0).val; omega
    | ⟨1, _⟩ => show win1_4.index t (1 : Fin 2) * 16 + 1 * (y 1).val = (y 1).val; omega
  have w5 : iblk1 V c 5 t = V c main_v28 := by
    funext y
    show V c main_v28 (((cfg1.win 5).blk t).view.emb y) = V c main_v28 y
    refine congrArg (V c main_v28) (funext fun a => Fin.ext ?_)
    match a with
    | ⟨0, _⟩ => show win1_5.index t (0 : Fin 2) * 1 + 1 * (y 0).val = (y 0).val; omega
    | ⟨1, _⟩ => show win1_5.index t (1 : Fin 2) * 16 + 1 * (y 1).val = (y 1).val; omega
  rw [w2, w3, w4, w5]
  refine funext fun (y : S5000x16.Idx) => ?_
  obtain ⟨p, q, rfl⟩ : ∃ (p : Fin 5000) (q : Fin 16), y = ix2 p q := ⟨y 0, y 1, eq_ix2 y⟩
  have hp : p.val < 5000 := p.isLt
  show convOut (N := 5000) (iblk1 V c 0 t) (iblk1 V c 1 t) (V c main_arg6) (V c main_v27) (V c main_arg8) (V c main_v28) (ix2 p q)
    = convOut (N := 100000) (V c main_v16) (V c main_v26) (V c main_arg6) (V c main_v27) (V c main_arg8) (V c main_v28)
        (((cfg1.win 10).blk t).view.emb (ix2 p q))
  have eo : ((cfg1.win 10).blk t).view.emb (ix2 p q) = ix2 (⟨t.val * 5000 + p.val, by omega⟩ : Fin 100000) q := by
    funext a; apply Fin.ext
    match a with
    | ⟨0, _⟩ => show win1_10.index t (0 : Fin 2) * 5000 + 1 * p.val = t.val * 5000 + p.val; omega
    | ⟨1, _⟩ => show win1_10.index t (1 : Fin 2) * 16 + 1 * q.val = q.val; omega
  rw [eo]
  refine convOut_rows _ _ _ _ _ _ _ _ p _ q (fun j => ?_) (fun j => ?_)
  · show V c main_v16 (((cfg1.win 0).blk t).view.emb (ix2 p j)) = _
    refine congrArg (V c main_v16) (funext fun a => Fin.ext ?_)
    match a with
    | ⟨0, _⟩ => show win1_0.index t (0 : Fin 2) * 5000 + 1 * p.val = t.val * 5000 + p.val; omega
    | ⟨1, _⟩ => show win1_0.index t (1 : Fin 2) * 16 + 1 * j.val = j.val; omega
  · show V c main_v26 (((cfg1.win 1).blk t).view.emb (ix2 p j)) = _
    refine congrArg (V c main_v26) (funext fun a => Fin.ext ?_)
    match a with
    | ⟨0, _⟩ => show win1_1.index t (0 : Fin 2) * 5000 + 1 * p.val = t.val * 5000 + p.val; omega
    | ⟨1, _⟩ => show win1_1.index t (1 : Fin 2) * 16 + 1 * j.val = j.val; omega

/-- WHAT POINT `t` WRITES BACK to the second result is block `t` of the output convolution, with the second set of weights, of the arrays as the region finds them. -/
theorem flushed1_ls_eq (c : Dev nD) (t : Fin cfg1.N) :
    (dat1 V c).flushed 11 t = ((cfg1.win 11).blk t).view.read (Elt Ideal)
      (convOut (N := 100000) (V c main_v16) (V c main_v26) (V c main_arg10) (V c main_v29) (V c main_arg12) (V c main_v30)) := by
  show (cfg1.win 11).cut (grid1.coords t) ((dat1 V c).after 11 t) = _
  rw [after1_11]
  unfold out1_11
  rw [View.canon_unit_zero offset_zero]
  simp only [View.ld_unit_zero (S := S5000x16) offset_zero, View.ld_unit_zero (S := S16x32) offset_zero,
    View.ld_unit_zero (S := S1x32) offset_zero, View.ld_unit_zero (S := S32x16) offset_zero,
    View.ld_unit_zero (S := S1x16) offset_zero]
  rw [pay1_ls_eq]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := index_maps1 t
  have ht := point_lt1 t
  have w6 : iblk1 V c 6 t = V c main_arg10 := by
    funext y
    show V c main_arg10 (((cfg1.win 6).blk t).view.emb y) = V c main_arg10 y
    refine congrArg (V c main_arg10) (funext fun a => Fin.ext ?_)
    match a with
    | ⟨0, _⟩ => show win1_6.index t (0 : Fin 2) * 16 + 1 * (y 0).val = (y 0).val; omega
    | ⟨1, _⟩ => show win1_6.index t (1 : Fin 2) * 32 + 1 * (y 1).val = (y 1).val; omega
  have w7 : iblk1 V c 7 t = V c main_v29 := by
    funext y
    show V c main_v29 (((cfg1.win 7).blk t).view.emb y) = V c main_v29 y
    refine congrArg (V c main_v29) (funext fun a => Fin.ext ?_)
    match a with
    | ⟨0, _⟩ => show win1_7.index t (0 : Fin 2) * 1 + 1 * (y 0).val = (y 0).val; omega
    | ⟨1, _⟩ => show win1_7.index t (1 : Fin 2) * 32 + 1 * (y 1).val = (y 1).val; omega
  have w8 : iblk1 V c 8 t = V c main_arg12 := by
    funext y
    show V c main_arg12 (((cfg1.win 8).blk t).view.emb y) = V c main_arg12 y
    refine congrArg (V c main_arg12) (funext fun a => Fin.ext ?_)
    match a with
    | ⟨0, _⟩ => show win1_8.index t (0 : Fin 2) * 32 + 1 * (y 0).val = (y 0).val; omega
    | ⟨1, _⟩ => show win1_8.index t (1 : Fin 2) * 16 + 1 * (y 1).val = (y 1).val; omega
  have w9 : iblk1 V c 9 t = V c main_v30 := by
    funext y
    show V c main_v30 (((cfg1.win 9).blk t).view.emb y) = V c main_v30 y
    refine congrArg (V c main_v30) (funext fun a => Fin.ext ?_)
    match a with
    | ⟨0, _⟩ => show win1_9.index t (0 : Fin 2) * 1 + 1 * (y 0).val = (y 0).val; omega
    | ⟨1, _⟩ => show win1_9.index t (1 : Fin 2) * 16 + 1 * (y 1).val = (y 1).val; omega
  rw [w6, w7, w8, w9]
  refine funext fun (y : S5000x16.Idx) => ?_
  obtain ⟨p, q, rfl⟩ : ∃ (p : Fin 5000) (q : Fin 16), y = ix2 p q := ⟨y 0, y 1, eq_ix2 y⟩
  have hp : p.val < 5000 := p.isLt
  show convOut (N := 5000) (iblk1 V c 0 t) (iblk1 V c 1 t) (V c main_arg10) (V c main_v29) (V c main_arg12) (V c main_v30) (ix2 p q)
    = convOut (N := 100000) (V c main_v16) (V c main_v26) (V c main_arg10) (V c main_v29) (V c main_arg12) (V c main_v30)
        (((cfg1.win 11).blk t).view.emb (ix2 p q))
  have eo : ((cfg1.win 11).blk t).view.emb (ix2 p q) = ix2 (⟨t.val * 5000 + p.val, by omega⟩ : Fin 100000) q := by
    funext a; apply Fin.ext
    match a with
    | ⟨0, _⟩ => show win1_11.index t (0 : Fin 2) * 5000 + 1 * p.val = t.val * 5000 + p.val; omega
    | ⟨1, _⟩ => show win1_11.index t (1 : Fin 2) * 16 + 1 * q.val = q.val; omega
  rw [eo]
  refine convOut_rows _ _ _ _ _ _ _ _ p _ q (fun j => ?_) (fun j => ?_)
  · show V c main_v16 (((cfg1.win 0).blk t).view.emb (ix2 p j)) = _
    refine congrArg (V c main_v16) (funext fun a => Fin.ext ?_)
    match a with
    | ⟨0, _⟩ => show win1_0.index t (0 : Fin 2) * 5000 + 1 * p.val = t.val * 5000 + p.val; omega
    | ⟨1, _⟩ => show win1_0.index t (1 : Fin 2) * 16 + 1 * j.val = j.val; omega
  · show V c main_v26 (((cfg1.win 1).blk t).view.emb (ix2 p j)) = _
    refine congrArg (V c main_v26) (funext fun a => Fin.ext ?_)
    match a with
    | ⟨0, _⟩ => show win1_1.index t (0 : Fin 2) * 5000 + 1 * p.val = t.val * 5000 + p.val; omega
    | ⟨1, _⟩ => show win1_1.index t (1 : Fin 2) * 16 + 1 * j.val = j.val; omega

/-- An index of result 0 is in point `t`'s block iff each coordinate is in the block's range on its axis. -/
theorem mem_blk1_10 (t : Fin cfg1.N) (i : S100000x16.Idx) :
    i ∈ ((cfg1.win 10).blk t).view.set ↔ ∀ a : Fin 2, win1_10.index t a * S5000x16.size a ≤ (i a).val
      ∧ (i a).val < win1_10.index t a * S5000x16.size a + S5000x16.size a := by
  show i ∈ ((View.whole main_v31_0).slice (win1_10.rect t)).set ↔ _
  rw [View.set_slice_whole, Rect.mem_set_unit]
  exact Iff.rfl

/-- Every row of result 0 is in the block of the point numbered by its five-thousands. -/
theorem cover1_10_all (i : S100000x16.Idx) :
    ∃ t : Fin cfg1.N, (cfg1.win 10).flush t = true ∧ i ∈ ((cfg1.win 10).blk t).view.set := by
  have hi0 : (i 0).val < 100000 := (i 0).isLt
  have hi1 : (i 1).val < 16 := (i 1).isLt
  have hN : (i 0).val / 5000 < cfg1.N := by rw [show cfg1.N = 20 from N_1]; omega
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := index_maps1 ⟨(i 0).val / 5000, hN⟩
  refine ⟨⟨(i 0).val / 5000, hN⟩, flush1_10 _, ?_⟩
  rw [mem_blk1_10]
  intro a
  match a with
  | ⟨0, _⟩ =>
    show win1_10.index ⟨(i 0).val / 5000, hN⟩ (0 : Fin 2) * 5000 ≤ (i 0).val
      ∧ (i 0).val < win1_10.index ⟨(i 0).val / 5000, hN⟩ (0 : Fin 2) * 5000 + 5000
    rw [e10_0]
    show (i 0).val / 5000 * 5000 ≤ (i 0).val ∧ (i 0).val < (i 0).val / 5000 * 5000 + 5000
    omega
  | ⟨1, _⟩ =>
    show win1_10.index ⟨(i 0).val / 5000, hN⟩ (1 : Fin 2) * 16 ≤ (i 1).val
      ∧ (i 1).val < win1_10.index ⟨(i 0).val / 5000, hN⟩ (1 : Fin 2) * 16 + 16
    omega

/-- An index of result 1 is in point `t`'s block iff each coordinate is in the block's range on its axis. -/
theorem mem_blk1_11 (t : Fin cfg1.N) (i : S100000x16.Idx) :
    i ∈ ((cfg1.win 11).blk t).view.set ↔ ∀ a : Fin 2, win1_11.index t a * S5000x16.size a ≤ (i a).val
      ∧ (i a).val < win1_11.index t a * S5000x16.size a + S5000x16.size a := by
  show i ∈ ((View.whole main_v31_1).slice (win1_11.rect t)).set ↔ _
  rw [View.set_slice_whole, Rect.mem_set_unit]
  exact Iff.rfl

/-- Every row of result 1 is in the block of the point numbered by its five-thousands. -/
theorem cover1_11_all (i : S100000x16.Idx) :
    ∃ t : Fin cfg1.N, (cfg1.win 11).flush t = true ∧ i ∈ ((cfg1.win 11).blk t).view.set := by
  have hi0 : (i 0).val < 100000 := (i 0).isLt
  have hi1 : (i 1).val < 16 := (i 1).isLt
  have hN : (i 0).val / 5000 < cfg1.N := by rw [show cfg1.N = 20 from N_1]; omega
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := index_maps1 ⟨(i 0).val / 5000, hN⟩
  refine ⟨⟨(i 0).val / 5000, hN⟩, flush1_11 _, ?_⟩
  rw [mem_blk1_11]
  intro a
  match a with
  | ⟨0, _⟩ =>
    show win1_11.index ⟨(i 0).val / 5000, hN⟩ (0 : Fin 2) * 5000 ≤ (i 0).val
      ∧ (i 0).val < win1_11.index ⟨(i 0).val / 5000, hN⟩ (0 : Fin 2) * 5000 + 5000
    rw [e11_0]
    show (i 0).val / 5000 * 5000 ≤ (i 0).val ∧ (i 0).val < (i 0).val / 5000 * 5000 + 5000
    omega
  | ⟨1, _⟩ =>
    show win1_11.index ⟨(i 0).val / 5000, hN⟩ (1 : Fin 2) * 16 ≤ (i 1).val
      ∧ (i 1).val < win1_11.index ⟨(i 0).val / 5000, hN⟩ (1 : Fin 2) * 16 + 16
    omega

/-- THE FIRST RESULT ARRAY: the output convolution, with the first set of weights, of the arrays the region found. -/
theorem final1_mu (c : Dev nD) :
    (dat1 V c).arrAt 10 cfg1.N
      = convOut (N := 100000) (V c main_v16) (V c main_v26) (V c main_arg6) (V c main_v27) (V c main_arg8) (V c main_v28) :=
  (dat1 V c).arrAt_eq_of_cover 10 _ (fun t _ => flushed1_mu_eq V c t) cover1_10_all

/-- THE SECOND RESULT ARRAY: the output convolution, with the second set of weights, of the arrays the region found. -/
theorem final1_ls (c : Dev nD) :
    (dat1 V c).arrAt 11 cfg1.N
      = convOut (N := 100000) (V c main_v16) (V c main_v26) (V c main_arg10) (V c main_v29) (V c main_arg12) (V c main_v30) :=
  (dat1 V c).arrAt_eq_of_cover 11 _ (fun t _ => flushed1_ls_eq V c t) cover1_11_all

end Cert.KernelIdeal.Arrays

end
-- ==== Proof.RefValue.lean ====
/-
  The reference's three convolutions are the layer functions of its own intermediate arrays.

  The reference computes, on the host: the neighbour sums of the features, the first convolution and a rectifier;
  then twice — once per output — the neighbour sums of that hidden array and an output convolution of it. Read one
  operation at a time, each of the three arrays is `conv1` / `convOut` of the array it is computed from, of the
  neighbour sums the program forms of that array, of the weights, and of the bias vectors set as rows by a
  broadcast: a general product plus a spread bias row is `lin` of the left operand's row, and the maximum with the
  broadcast zero constant is the rectifier.
-/
import proofs.«169312_j32633161515327_2_alg».proof.Proof.Gen.ReferenceIdeal.Run
import proofs.«169312_j32633161515327_2_alg».proof.Proof.Gen.ReferenceIdeal.Read
import proofs.«169312_j32633161515327_2_alg».proof.Proof.Layer

noncomputable section

namespace Cert.ReferenceIdeal.RefValue

open Cert.ReferenceIdeal Cert.ReferenceIdeal.Read Cert.Gin
open Idealize.ShloMosaic Idealize.ShloMosaic.ValueIdx

variable (x0 : (⟨S100000x64, .f32⟩ : BufTy).Contents (Elt Ideal)) (x1 : (⟨S2x1600000, .i32⟩ : BufTy).Contents (Elt Ideal))
  (x2 : (⟨S64x32, .f32⟩ : BufTy).Contents (Elt Ideal)) (x3 : (⟨S32, .f32⟩ : BufTy).Contents (Elt Ideal))
  (x4 : (⟨S32x16, .f32⟩ : BufTy).Contents (Elt Ideal)) (x5 : (⟨S16, .f32⟩ : BufTy).Contents (Elt Ideal))

/-- The hidden array is the first convolution of the features and of their neighbour sums. -/
theorem hidden_eq :
    val_main_v26 (F := Ideal) x0 x1 x2 x3 x4 x5
      = conv1 (N := 100000) x0 (val_main_v13 (F := Ideal) x0 x1) x2 (val_main_v16 (F := Ideal) x3) x4
          (val_main_v22 (F := Ideal) x5) := by
  funext i
  obtain ⟨r, c, rfl⟩ : ∃ (r : Fin 100000) (c : Fin 16), i = ix2 r c := ⟨i 0, i 1, eq_ix2 i⟩
  unfold val_main_v26 val_main_v25 val_main_cst_2 val_main_v24 val_main_v23 val_main_v21 val_main_v20 val_main_v19
    val_main_cst_1 val_main_v18 val_main_v17 val_main_v15 val_main_v14
  refine (relu_host _ _ (ix2 r c)).trans (congrArg relu ?_)
  refine (host_lin_apply dot_S100000x32_S32x16_S100000x16_1_0_0_1_n_n rfl _ _ x4 (val_main_v22 (F := Ideal) x5) _ r c).trans ?_
  refine congrArg (fun a => lin a x4 (val_main_v22 (F := Ideal) x5) c) (funext fun k => ?_)
  refine (relu_host _ _ (ix2 r k)).trans (congrArg relu ?_)
  exact host_lin_apply dot_S100000x64_S64x32_S100000x32_1_0_0_1_n_n rfl _
    (addf x0 (val_main_v13 (F := Ideal) x0 x1)) x2 (val_main_v16 (F := Ideal) x3) _ r k

variable (x6 : (⟨S16x32, .f32⟩ : BufTy).Contents (Elt Ideal)) (x7 : (⟨S32, .f32⟩ : BufTy).Contents (Elt Ideal))
  (x8 : (⟨S32x16, .f32⟩ : BufTy).Contents (Elt Ideal)) (x9 : (⟨S16, .f32⟩ : BufTy).Contents (Elt Ideal))

/-- The first result is the output convolution of the hidden array and of its neighbour sums. -/
theorem first_eq :
    val_main_v51 (F := Ideal) x0 x1 x2 x3 x4 x5 x6 x7 x8 x9
      = convOut (N := 100000) (val_main_v26 (F := Ideal) x0 x1 x2 x3 x4 x5) (val_main_v40 (F := Ideal) x0 x1 x2 x3 x4 x5)
          x6 (val_main_v43 (F := Ideal) x7) x8 (val_main_v49 (F := Ideal) x9) := by
  funext i
  obtain ⟨r, c, rfl⟩ : ∃ (r : Fin 100000) (c : Fin 16), i = ix2 r c := ⟨i 0, i 1, eq_ix2 i⟩
  unfold val_main_v51 val_main_v50 val_main_v48 val_main_v47 val_main_v46 val_main_cst_6 val_main_v45 val_main_v44
    val_main_v42 val_main_v41
  refine (host_lin_apply dot_S100000x32_S32x16_S100000x16_1_0_0_1_n_n rfl _ _ x8 (val_main_v49 (F := Ideal) x9) _ r c).trans ?_
  refine congrArg (fun a => lin a x8 (val_main_v49 (F := Ideal) x9) c) (funext fun k => ?_)
  refine (relu_host _ _ (ix2 r k)).trans (congrArg relu ?_)
  exact host_lin_apply dot_S100000x16_S16x32_S100000x32_1_0_0_1_n_n rfl _
    (addf (val_main_v26 (F := Ideal) x0 x1 x2 x3 x4 x5) (val_main_v40 (F := Ideal) x0 x1 x2 x3 x4 x5)) x6
    (val_main_v43 (F := Ideal) x7) _ r k

variable (x10 : (⟨S16x32, .f32⟩ : BufTy).Contents (Elt Ideal)) (x11 : (⟨S32, .f32⟩ : BufTy).Contents (Elt Ideal))
  (x12 : (⟨S32x16, .f32⟩ : BufTy).Contents (Elt Ideal)) (x13 : (⟨S16, .f32⟩ : BufTy).Contents (Elt Ideal))

/-- The second result is the output convolution of the same hidden array and of its neighbour sums, formed again. -/
theorem second_eq :
    val_main_v76 (F := Ideal) x0 x1 x2 x3 x4 x5 x10 x11 x12 x13
      = convOut (N := 100000) (val_main_v26 (F := Ideal) x0 x1 x2 x3 x4 x5) (val_main_v65 (F := Ideal) x0 x1 x2 x3 x4 x5)
          x10 (val_main_v68 (F := Ideal) x11) x12 (val_main_v74 (F := Ideal) x13) := by
  funext i
  obtain ⟨r, c, rfl⟩ : ∃ (r : Fin 100000) (c : Fin 16), i = ix2 r c := ⟨i 0, i 1, eq_ix2 i⟩
  unfold val_main_v76 val_main_v75 val_main_v73 val_main_v72 val_main_v71 val_main_cst_10 val_main_v70 val_main_v69
    val_main_v67 val_main_v66
  refine (host_lin_apply dot_S100000x32_S32x16_S100000x16_1_0_0_1_n_n rfl _ _ x12 (val_main_v74 (F := Ideal) x13) _ r c).trans ?_
  refine congrArg (fun a => lin a x12 (val_main_v74 (F := Ideal) x13) c) (funext fun k => ?_)
  refine (relu_host _ _ (ix2 r k)).trans (congrArg relu ?_)
  exact host_lin_apply dot_S100000x16_S16x32_S100000x32_1_0_0_1_n_n rfl _
    (addf (val_main_v26 (F := Ideal) x0 x1 x2 x3 x4 x5) (val_main_v65 (F := Ideal) x0 x1 x2 x3 x4 x5)) x10
    (val_main_v68 (F := Ideal) x11) _ r k

end Cert.ReferenceIdeal.RefValue

end
-- ==== Proof.Entry.lean ====
/-
  The arrays each region finds, and the kernel's two results, as functions of the launch memory.

  Before the first region the host forms the neighbour sums of the features and sets the two bias vectors as rows
  by a reshape; nothing else it hands the region is written. A bias vector reshaped to one row is the same array
  as that vector broadcast along the row's second axis, which is how the reference sets it. So the first region's
  result is the first convolution of the launched features, of their neighbour sums, of the launched weights and
  of the bias rows: the reference's hidden array, as a function of the same arguments.

  Between the regions the host forms the neighbour sums of that hidden array — from the same edge lists, read
  again from the buffers the first stretch of host operations left — and sets the four remaining bias vectors as
  rows. Hence each of the second region's results is the output convolution the reference computes for it: the
  reference forms the neighbour sums of the hidden array once per output, from the same operations of the same
  arrays, and the kernel once for both.
-/
import proofs.«169312_j32633161515327_2_alg».proof.Proof.Gen.KernelIdeal.Frame
import proofs.«169312_j32633161515327_2_alg».proof.Proof.Gen.ReferenceIdeal.Read
import proofs.«169312_j32633161515327_2_alg».proof.Proof.LibVectorAsMatrix
import proofs.«169312_j32633161515327_2_alg».proof.Proof.Region1
import proofs.«169312_j32633161515327_2_alg».proof.Proof.RefValue
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the first region finds -/

theorem launch0_arg0 (c : Dev nD) : V1 m ρ c main_arg0 = m ((c : Thread nD τ).loc main_arg0) := by
  show StableHlo.after hostOps0 (W0 m ρ c) (Proc.devRef .tc main_arg0) = _
  after_results <;> rfl

theorem launch0_arg2 (c : Dev nD) : V1 m ρ c main_arg2 = m ((c : Thread nD τ).loc main_arg2) := by
  show StableHlo.after hostOps0 (W0 m ρ c) (Proc.devRef .tc main_arg2) = _
  after_results <;> rfl

theorem launch0_arg4 (c : Dev nD) : V1 m ρ c main_arg4 = m ((c : Thread nD τ).loc main_arg4) := by
  show StableHlo.after hostOps0 (W0 m ρ c) (Proc.devRef .tc main_arg4) = _
  after_results <;> rfl

/-- The neighbour sums of the features, as the reference forms them. -/
theorem entry0_sums (c : Dev nD) :
    V1 m ρ c main_v13 = Cert.ReferenceIdeal.Read.val_main_v13 (F := Ideal) (m ((c : Thread nD τ).loc main_arg0)) (m ((c : Thread nD τ).loc main_arg1)) := by
  show StableHlo.after hostOps0 (W0 m ρ c) (Proc.devRef .tc main_v13) = _
  after_results
  rfl

theorem entry0_bias1 (c : Dev nD) : V1 m ρ c main_v14 = Cert.ReferenceIdeal.Read.val_main_v16 (F := Ideal) (m ((c : Thread nD τ).loc main_arg3)) := by
  show StableHlo.after hostOps0 (W0 m ρ c) (Proc.devRef .tc main_v14) = _
  after_results
  exact Cert.Lib.VectorAsMatrix.row_eq _ _ _

theorem entry0_bias2 (c : Dev nD) : V1 m ρ c main_v15 = Cert.ReferenceIdeal.Read.val_main_v22 (F := Ideal) (m ((c : Thread nD τ).loc main_arg5)) := by
  show StableHlo.after hostOps0 (W0 m ρ c) (Proc.devRef .tc main_v15) = _
  after_results
  exact Cert.Lib.VectorAsMatrix.row_eq _ _ _

/-! ## The hidden array -/

/-- The first region leaves the reference's hidden array of the launched arguments. -/
theorem hidden (c : Dev nD) :
    W2 m ρ c (Proc.devRef .tc main_v16) = Cert.ReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W2_arr m ρ c 6).trans ((Cert.KernelIdeal.Arrays.final0 (V1 m ρ) c).trans (by
    rw [launch0_arg0, launch0_arg2, launch0_arg4, entry0_sums, entry0_bias1, entry0_bias2]
    exact (Cert.ReferenceIdeal.RefValue.hidden_eq _ _ _ _ _ _).symm))

/-! ## What the second region finds -/

theorem mid_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results <;> rfl)

theorem mid_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results <;> rfl)

theorem mid_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results <;> rfl)

theorem mid_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results <;> rfl)

theorem mid_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results <;> rfl)

theorem mid_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results <;> rfl)

theorem mid_arg12 (c : Dev nD) : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = _
    after_results <;> rfl)

theorem mid_arg13 (c : Dev nD) : W2 m ρ c (Proc.devRef .tc main_arg13) = m ((c : Thread nD τ).loc main_arg13) :=
  (W2_of_ne m ρ c main_arg13 (by decide)).trans (by
    show StableHlo.after hostOps0 (W0 m ρ c) (Proc.devRef .tc main_arg13) = _
    after_results <;> rfl)

/-- The edges' source rows, left by the first stretch of host operations. -/
theorem mid_src (c : Dev nD) : W2 m ρ c (Proc.devRef .tc main_v1) = Cert.ReferenceIdeal.Read.val_main_v1 (F := Ideal) (m ((c : Thread nD τ).loc main_arg1)) :=
  (W2_of_ne m ρ c main_v1 (by decide)).trans (by
    show StableHlo.after hostOps0 (W0 m ρ c) (Proc.devRef .tc main_v1) = _
    after_results
    rfl)

/-- The edges' destination rows, left by the first stretch of host operations. -/
theorem mid_dst (c : Dev nD) : W2 m ρ c (Proc.devRef .tc main_v3) = Cert.ReferenceIdeal.Read.val_main_v3 (F := Ideal) (m ((c : Thread nD τ).loc main_arg1)) :=
  (W2_of_ne m ρ c main_v3 (by decide)).trans (by
    show StableHlo.after hostOps0 (W0 m ρ c) (Proc.devRef .tc main_v3) = _
    after_results
    rfl)

theorem entry1_hidden (c : Dev nD) : V3 m ρ c main_v16 = Cert.ReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v16) = _
  after_results
  exact hidden m ρ c

/-- The neighbour sums of the hidden array, as the reference forms them for its first result. -/
theorem entry1_sums (c : Dev nD) : V3 m ρ c main_v26 = Cert.ReferenceIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v26) = _
  after_results
  rw [hidden m ρ c, mid_src m ρ c, mid_dst m ρ c]
  rfl

/-- The reference forms the same neighbour sums again for its second result. -/
theorem sums_again (x0 : (⟨Cert.ReferenceIdeal.S100000x64, .f32⟩ : BufTy).Contents (Elt Ideal))
    (x1 : (⟨Cert.ReferenceIdeal.S2x1600000, .i32⟩ : BufTy).Contents (Elt Ideal))
    (x2 : (⟨Cert.ReferenceIdeal.S64x32, .f32⟩ : BufTy).Contents (Elt Ideal)) (x3 : (⟨Cert.ReferenceIdeal.S32, .f32⟩ : BufTy).Contents (Elt Ideal))
    (x4 : (⟨Cert.ReferenceIdeal.S32x16, .f32⟩ : BufTy).Contents (Elt Ideal)) (x5 : (⟨Cert.ReferenceIdeal.S16, .f32⟩ : BufTy).Contents (Elt Ideal)) :
    Cert.ReferenceIdeal.Read.val_main_v40 (F := Ideal) x0 x1 x2 x3 x4 x5 = Cert.ReferenceIdeal.Read.val_main_v65 (F := Ideal) x0 x1 x2 x3 x4 x5 := rfl

theorem entry1_arg6 (c : Dev nD) : V3 m ρ c main_arg6 = m ((c : Thread nD τ).loc main_arg6) := by
  show StableHlo.after hostOps1 (W2 m ρ c) (Proc.devRef .tc main_arg6) = _
  after_results
  exact mid_arg6 m ρ c

theorem entry1_arg8 (c : Dev nD) : V3 m ρ c main_arg8 = m ((c : Thread nD τ).loc main_arg8) := by
  show StableHlo.after hostOps1 (W2 m ρ c) (Proc.devRef .tc main_arg8) = _
  after_results
  exact mid_arg8 m ρ c

theorem entry1_arg10 (c : Dev nD) : V3 m ρ c main_arg10 = m ((c : Thread nD τ).loc main_arg10) := by
  show StableHlo.after hostOps1 (W2 m ρ c) (Proc.devRef .tc main_arg10) = _
  after_results
  exact mid_arg10 m ρ c

theorem entry1_arg12 (c : Dev nD) : V3 m ρ c main_arg12 = m ((c : Thread nD τ).loc main_arg12) := by
  show StableHlo.after hostOps1 (W2 m ρ c) (Proc.devRef .tc main_arg12) = _
  after_results
  exact mid_arg12 m ρ c

theorem entry1_v27 (c : Dev nD) : V3 m ρ c main_v27 = Cert.ReferenceIdeal.Read.val_main_v43 (F := Ideal) (m ((c : Thread nD τ).loc main_arg7)) := by
  show StableHlo.after hostOps1 (W2 m ρ c) (Proc.devRef .tc main_v27) = _
  after_results
  rw [mid_arg7 m ρ c]
  exact Cert.Lib.VectorAsMatrix.row_eq _ _ _

theorem entry1_v28 (c : Dev nD) : V3 m ρ c main_v28 = Cert.ReferenceIdeal.Read.val_main_v49 (F := Ideal) (m ((c : Thread nD τ).loc main_arg9)) := by
  show StableHlo.after hostOps1 (W2 m ρ c) (Proc.devRef .tc main_v28) = _
  after_results
  rw [mid_arg9 m ρ c]
  exact Cert.Lib.VectorAsMatrix.row_eq _ _ _

theorem entry1_v29 (c : Dev nD) : V3 m ρ c main_v29 = Cert.ReferenceIdeal.Read.val_main_v68 (F := Ideal) (m ((c : Thread nD τ).loc main_arg11)) := by
  show StableHlo.after hostOps1 (W2 m ρ c) (Proc.devRef .tc main_v29) = _
  after_results
  rw [mid_arg11 m ρ c]
  exact Cert.Lib.VectorAsMatrix.row_eq _ _ _

theorem entry1_v30 (c : Dev nD) : V3 m ρ c main_v30 = Cert.ReferenceIdeal.Read.val_main_v74 (F := Ideal) (m ((c : Thread nD τ).loc main_arg13)) := by
  show StableHlo.after hostOps1 (W2 m ρ c) (Proc.devRef .tc main_v30) = _
  after_results
  rw [mid_arg13 m ρ c]
  exact Cert.Lib.VectorAsMatrix.row_eq _ _ _

/-! ## The two results -/

/-- The kernel's first result is the reference's first result as a function of the kernel's arguments. -/
theorem result_first (c : Dev nD) :
    W4 m ρ c (Proc.devRef .tc main_v31_0)
      = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W4_arr m ρ c 10).trans ((Cert.KernelIdeal.Arrays.final1_mu (V3 m ρ) c).trans (by
    rw [entry1_hidden, entry1_sums, entry1_arg6, entry1_v27, entry1_arg8, entry1_v28]
    exact (Cert.ReferenceIdeal.RefValue.first_eq _ _ _ _ _ _ _ _ _ _).symm))

/-- The kernel's second result is the reference's second result as a function of the kernel's arguments. -/
theorem result_second (c : Dev nD) :
    W4 m ρ c (Proc.devRef .tc main_v31_1)
      = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) :=
  (W4_arr m ρ c 11).trans ((Cert.KernelIdeal.Arrays.final1_ls (V3 m ρ) c).trans (by
    rw [entry1_hidden, entry1_sums, entry1_arg10, entry1_v29, entry1_arg12, entry1_v30, sums_again]
    exact (Cert.ReferenceIdeal.RefValue.second_eq _ _ _ _ _ _ _ _ _ _).symm))

end Cert.KernelIdeal.Entry

end
-- ==== Proof.lean ====
/-
  A three-convolution graph encoder, tiled over rows on the matrix unit, against its plain reference.

  Both programs take node features `x` (100000 × 64), an edge list (2 × 1600000) and the weights and biases of three
  two-layer perceptrons. A convolution adds to each node's row the sum of its in-neighbours' rows (a gather of the
  source rows followed by an accumulating scatter to the destination rows, on the host in both programs) and sends
  the sum through `linear → rectifier → linear`. The first convolution is followed by a rectifier and yields the
  hidden array; the two results are two further convolutions of the hidden array, with their own weights.

  The kernel differs from the reference in four ways, none of which changes a value at exact arithmetic: it runs
  the perceptrons on the matrix unit in blocks of rows (a node's output depends on its own row only, so the blocks
  of the result are the blocks of the whole array's convolution, and they tile it); it narrows the operands'
  format before each product (the identity on the extended reals); its products accumulate into a zero block (a
  sum over the shared axis, as the host's general product is); and it forms the hidden array's neighbour sums once
  for both results, where the reference forms them once per result from the same operations of the same arrays.
  Biases are set as one row by a reshape in the kernel and by a broadcast in the reference: the same array.

  So each of the kernel's results is the very function of the arguments that the reference's run ends at, and the
  two runs, started from memories that agree on the arguments, end with equal results. No law used here needs the
  inputs to be finite. The idealization rewrote nothing, so it is preserved trivially; the kernels' frames are the
  generated ones, and the reference's frame is its run with the results dropped.
-/
import proofs.«169312_j32633161515327_2_alg».proof.Defs
import proofs.«169312_j32633161515327_2_alg».proof.Proof.Gen.Kernel
import proofs.«169312_j32633161515327_2_alg».proof.Proof.Gen.Kernel.Skeleton
import proofs.«169312_j32633161515327_2_alg».proof.Proof.Gen.Kernel.Launch
import proofs.«169312_j32633161515327_2_alg».proof.Proof.Gen.Kernel.Points
import proofs.«169312_j32633161515327_2_alg».proof.Proof.Gen.Kernel.Frame
import proofs.«169312_j32633161515327_2_alg».proof.Proof.Gen.KernelIdeal
import proofs.«169312_j32633161515327_2_alg».proof.Proof.Gen.KernelIdeal.Skeleton
import proofs.«169312_j32633161515327_2_alg».proof.Proof.Gen.KernelIdeal.Launch
import proofs.«169312_j32633161515327_2_alg».proof.Proof.Gen.KernelIdeal.Points
import proofs.«169312_j32633161515327_2_alg».proof.Proof.Gen.KernelIdeal.Frame
import proofs.«169312_j32633161515327_2_alg».proof.Proof.Gen.ReferenceIdeal
import proofs.«169312_j32633161515327_2_alg».proof.Proof.Gen.ReferenceIdeal.Run
import proofs.«169312_j32633161515327_2_alg».proof.Proof.Gen.ReferenceIdeal.Read
import proofs.«169312_j32633161515327_2_alg».proof.Proof.Gen.Pre_finite_inputs
import proofs.«169312_j32633161515327_2_alg».proof.Proof.KernelRun
import proofs.«169312_j32633161515327_2_alg».proof.Proof.Entry
import Idealize.ShloMosaic.Adequacy
import Idealize.ShloMosaic.Init

noncomputable section

namespace Cert.Proof

open Idealize.ShloMosaic Idealize.SL.Sem

/-- The reference's frame: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments both runs end, the kernel's two result arrays and the reference's
    at the same two functions of the arguments: the reference's own last stages. -/
theorem algebraic : Cert.algebraic_KernelIdeal_ReferenceIdeal := by
  intro m ρ m' ρ' _ hagree
  refine ⟨fun c => Cert.ReferenceIdeal.Read.val_main_v51 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ?_) (Cert.KernelIdeal.Results.run_results (F := Ideal) m ρ)
    obtain ⟨h0, h1, hargs⟩ := h c
    exact ⟨h0.trans (Cert.KernelIdeal.Entry.result_first m ρ c), h1.trans (Cert.KernelIdeal.Entry.result_second m ρ c), hargs⟩
  · refine (θ_run Cert.ReferenceIdeal.defs _ _).mono (fun r h c => ?_) (Cert.ReferenceIdeal.Value.run (F := Ideal) m' ρ')
    obtain ⟨h0, h1, hargs⟩ := h c
    obtain ⟨a0, a1, a2, a3, a4, a5, a6, a7, a8, a9, a10, a11, a12, a13⟩ := hagree c
    refine ⟨h0.trans ?_, h1.trans ?_, hargs⟩
    · rw [Cert.ReferenceIdeal.Read.val_main_v51_eq, a0, a1, a2, a3, a4, a5, a6, a7, a8, a9]
    · rw [Cert.ReferenceIdeal.Read.val_main_v76_eq, a0, a1, a2, a3, a4, a5, a10, a11, a12, a13]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
